-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S256x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S256x128 : Shape := ⟨2, ![256, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000x16x128 : Shape := ⟨3, ![100000, 16, 128]⟩
abbrev S100000x1x128 : Shape := ⟨3, ![100000, 1, 128]⟩
abbrev S128x128 : Shape := ⟨2, ![128, 128]⟩
abbrev S1x128 : Shape := ⟨2, ![1, 128]⟩
abbrev S106496x128 : Shape := ⟨2, ![106496, 128]⟩
abbrev S8192x128 : Shape := ⟨2, ![8192, 128]⟩

abbrev nBuf : Space → Nat
  | .hbm => 46
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S1x1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1, .i32⟩
  | .hbm, ⟨15, _⟩ => ⟨S_, .i32⟩
  | .hbm, ⟨16, _⟩ => ⟨S1600000x1, .i32⟩
  | .hbm, ⟨17, _⟩ => ⟨S1600000x1, .i1⟩
  | .hbm, ⟨18, _⟩ => ⟨S1x1, .i32⟩
  | .hbm, ⟨19, _⟩ => ⟨S1600000x1, .i32⟩
  | .hbm, ⟨20, _⟩ => ⟨S1600000x1, .i1⟩
  | .hbm, ⟨21, _⟩ => ⟨S1600000x1, .i1⟩
  | .hbm, ⟨22, _⟩ => ⟨S_, .i1⟩
  | .hbm, ⟨23, _⟩ => ⟨S1600000, .i1⟩
  | .hbm, ⟨24, _⟩ => ⟨S1600000x128, .f32⟩
  | .hbm, ⟨25, _⟩ => ⟨S1600000x128, .i1⟩
  | .hbm, ⟨26, _⟩ => ⟨S_, .f32⟩
  | .hbm, ⟨27, _⟩ => ⟨S1600000x128, .f32⟩
  | .hbm, ⟨28, _⟩ => ⟨S1600000x128, .f32⟩
  | .hbm, ⟨29, _⟩ => ⟨S100000x16x128, .f32⟩
  | .hbm, ⟨30, _⟩ => ⟨S100000x1x128, .f32⟩
  | .hbm, ⟨31, _⟩ => ⟨S100000x16x128, .f32⟩
  | .hbm, ⟨32, _⟩ => ⟨S100000x16x128, .f32⟩
  | .hbm, ⟨33, _⟩ => ⟨S_, .f32⟩
  | .hbm, ⟨34, _⟩ => ⟨S100000x128, .f32⟩
  | .hbm, ⟨35, _⟩ => ⟨S128x128, .f32⟩
  | .hbm, ⟨36, _⟩ => ⟨S128x128, .f32⟩
  | .hbm, ⟨37, _⟩ => ⟨S1x128, .f32⟩
  | .hbm, ⟨38, _⟩ => ⟨S_, .i32⟩
  | .hbm, ⟨39, _⟩ => ⟨S_, .f32⟩
  | .hbm, ⟨40, _⟩ => ⟨S106496x128, .f32⟩
  | .hbm, ⟨41, _⟩ => ⟨S_, .i32⟩
  | .hbm, ⟨42, _⟩ => ⟨S_, .f32⟩
  | .hbm, ⟨43, _⟩ => ⟨S106496x128, .f32⟩
  | .hbm, ⟨44, _⟩ => ⟨S106496x128, .f32⟩
  | .hbm, ⟨45, _⟩ => ⟨S100000x128, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S8192x128, .f32⟩
  | .local _ .vmem, ⟨8, _⟩ => ⟨S8192x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_c : Ref sig .tc := ⟨.hbm, 38, rfl⟩
abbrev main_call1_v0 : Ref sig .tc := ⟨.hbm, 39, rfl⟩
abbrev main_v11 : Ref sig .tc := ⟨.hbm, 40, rfl⟩
abbrev main_c_0 : Ref sig .tc := ⟨.hbm, 41, rfl⟩
abbrev main_call2_v0 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  shapeCasts_S1600000x128_S100000x16x128 : S1600000x128.ShapeCasts S100000x16x128
  bcast_S100000x128_S100000x1x128_0_2 : S100000x128.BroadcastsInDim S100000x1x128 (![0, 2] : Fin 2 → Fin S100000x1x128.rank)
  bcast_S100000x1x128_S100000x16x128_0_1_2 : S100000x1x128.BroadcastsInDim S100000x16x128 (![0, 1, 2] : Fin 3 → Fin S100000x16x128.rank)
  reducesTo_S100000x16x128_S100000x128_d1 : S100000x16x128.ReducesTo [1] S100000x128
  slices_S256x128_S128x128_0_0 : S256x128.Slices ![0, 0] S128x128
  slices_S256x128_S128x128_128_0 : S256x128.Slices ![128, 0] S128x128
  shapeCasts_S128_S1x128 : S128.ShapeCasts S1x128
  pads_S100000x128_S106496x128_064960_000 : S100000x128.Pads (![0, 0] : Fin 2 → Nat) ![6496, 0] ![0, 0] S106496x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  slices_S106496x128_S100000x128_0_0 : S106496x128.Slices ![0, 0] S100000x128
  gather_S100000x128_S1600000x1_S1600000x128_1_0_n_n_0_1_1128_wf : GatherDims.WF S100000x128 S1600000x1 S1600000x128 [1] [0] [] [0] [] 1 ![1, 128]
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S106496x128.size a
  hwx0_0 : ∀ i : grid0.Coords, EltTy.bits .f32 = 32 ∨ (Rect.block (s := S106496x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S106496x128.size a
  hwx0_1 : ∀ i : grid0.Coords, EltTy.bits .f32 = 32 ∨ (Rect.block (s := S106496x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x128.size a ≤ S106496x128.size a
  hwx0_5 : ∀ i : grid0.Coords, EltTy.bits .f32 = 32 ∨ (Rect.block (s := S106496x128) S8192x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v11) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S8192x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S256x128 : Shape := ⟨2, ![256, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000x16x128 : Shape := ⟨3, ![100000, 16, 128]⟩
abbrev S100000x1x128 : Shape := ⟨3, ![100000, 1, 128]⟩
abbrev S100000x256 : Shape := ⟨2, ![100000, 256]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S1x1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1, .i32⟩
  | .hbm, ⟨15, _⟩ => ⟨S_, .i32⟩
  | .hbm, ⟨16, _⟩ => ⟨S1600000x1, .i32⟩
  | .hbm, ⟨17, _⟩ => ⟨S1600000x1, .i1⟩
  | .hbm, ⟨18, _⟩ => ⟨S1x1, .i32⟩
  | .hbm, ⟨19, _⟩ => ⟨S1600000x1, .i32⟩
  | .hbm, ⟨20, _⟩ => ⟨S1600000x1, .i1⟩
  | .hbm, ⟨21, _⟩ => ⟨S1600000x1, .i1⟩
  | .hbm, ⟨22, _⟩ => ⟨S_, .i1⟩
  | .hbm, ⟨23, _⟩ => ⟨S1600000, .i1⟩
  | .hbm, ⟨24, _⟩ => ⟨S1600000x128, .f32⟩
  | .hbm, ⟨25, _⟩ => ⟨S1600000x128, .i1⟩
  | .hbm, ⟨26, _⟩ => ⟨S_, .f32⟩
  | .hbm, ⟨27, _⟩ => ⟨S1600000x128, .f32⟩
  | .hbm, ⟨28, _⟩ => ⟨S1600000x128, .f32⟩
  | .hbm, ⟨29, _⟩ => ⟨S100000x16x128, .f32⟩
  | .hbm, ⟨30, _⟩ => ⟨S100000x1x128, .f32⟩
  | .hbm, ⟨31, _⟩ => ⟨S100000x16x128, .f32⟩
  | .hbm, ⟨32, _⟩ => ⟨S100000x16x128, .f32⟩
  | .hbm, ⟨33, _⟩ => ⟨S_, .f32⟩
  | .hbm, ⟨34, _⟩ => ⟨S100000x128, .f32⟩
  | .hbm, ⟨35, _⟩ => ⟨S100000x256, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_call1_cst : Ref sig .tc := ⟨.hbm, 40, rfl⟩
abbrev main_call1_v0 : Ref sig .tc := ⟨.hbm, 41, rfl⟩
abbrev main_v13 : Ref sig .tc := ⟨.hbm, 42, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  shapeCasts_S1600000x128_S100000x16x128 : S1600000x128.ShapeCasts S100000x16x128
  bcast_S100000x128_S100000x1x128_0_2 : S100000x128.BroadcastsInDim S100000x1x128 (![0, 2] : Fin 2 → Fin S100000x1x128.rank)
  bcast_S100000x1x128_S100000x16x128_0_1_2 : S100000x1x128.BroadcastsInDim S100000x16x128 (![0, 1, 2] : Fin 3 → Fin S100000x16x128.rank)
  reducesTo_S100000x16x128_S100000x128_d1 : S100000x16x128.ReducesTo [1] S100000x128
  concatenates_S100000x128_S100000x128_S100000x256_d1 : Shape.Concatenates [S100000x128, S100000x128] S100000x256 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  gather_S100000x128_S1600000x1_S1600000x128_1_0_n_n_0_1_1128_wf : GatherDims.WF S100000x128 S1600000x1 S1600000x128 [1] [0] [] [0] [] 1 ![1, 128]
  dot_S100000x256_S256x128_S100000x128_1_0_0_1_n_n_wf : DotDims.WF S100000x256 S256x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.Tile.lean ====
/-
  ONE TILE OF THE KERNEL, ENTRY BY ENTRY.

  At each grid point the kernel holds a tile of 8192 rows of the (zero-padded) features and of the (zero-padded)
  aggregate, the upper and the lower half of the weight (128 × 128 each) and the bias as a one-row matrix.  It multiplies
  the feature tile by the upper half and the aggregate tile by the lower half on the matrix unit, each product started
  from zero, adds the two, adds the bias to every row and takes the maximum with zero.  Rounding the operands to a shorter
  float format is the identity on the extended reals, so entry `(r, q)` of the tile is

      max ( ∑_k x (r, k) · w₁ (k, q) + ∑_k a (r, k) · w₂ (k, q) + b (0, q) ,  0 ).
-/
import proofs.«111383_j80358838108753_2_alg».proof.Proof.Gen.KernelIdeal.Skeleton
import proofs.«111383_j80358838108753_2_alg».proof.Proof.LibMatOps
import Idealize.ShloMosaic.Lib.ValueLayout
import Idealize.ShloMosaic.Lib.Pipeline.Value

noncomputable section

open scoped BigOperators

namespace Cert.MRConv.Tile

open Idealize.ShloMosaic Idealize.ShloMosaic.ValueIdx Cert.KernelIdeal Cert.KernelIdeal.Facts₀

/-- A tile product started from zero: entry `(r, q)` is the sum over the 128 shared columns. -/
theorem product_apply (l : FVec Ideal S8192x128 .bf16) (w : FVec Ideal S128x128 .bf16) (r : Fin 8192) (q : Fin 128) :
    matmul dot_S8192x128_S128x128_S8192x128_1_0_0_1_n_n none l w (constant (F := Ideal) S8192x128 .f32 0x00000000#32) (ix2 r q)
      = ∑ k : Fin 128, l (ix2 r k) * w (ix2 k q) :=
  Cert.MatOps.matmul_plain_apply (M := 8192) (K := 128) (C := 128)
    dot_S8192x128_S128x128_S8192x128_1_0_0_1_n_n_wf none l w r q

/-- The stored tile at `(r, q)`. -/
theorem tile_apply (x0 x1 : Vec Ideal S8192x128 .f32) (w1 w2 : Vec Ideal S128x128 .f32) (b : Vec Ideal S1x128 .f32)
    (r : Fin 8192) (q : Fin 128) :
    Gen.k0_pay1 (F := Ideal) x0 x1 w1 w2 b (ix2 r q)
      = max ((∑ k : Fin 128, x0 (ix2 r k) * w1 (ix2 k q) + ∑ k : Fin 128, x1 (ix2 r k) * w2 (ix2 k q))
              + b (ix2 (0 : Fin 1) q)) (Ideal.ofBits .f32 0x00000000#32) := by
  unfold Gen.k0_pay1
  simp only [shapeCast_self]
  rw [maximumf_apply, addf_apply, addf_apply, product_apply, product_apply, broadcastTo_1b_ab_apply]
  rfl

end Cert.MRConv.Tile

end
-- ==== Proof.KernelArray.lean ====
/-
  THE KERNEL'S OUTPUT ARRAY AS ONE FUNCTION OF ITS OPERAND ARRAYS.

  The grid has thirteen points.  At point `t` the kernel reads rows `8192 t … 8192 t + 8191` of the padded features and
  of the padded aggregate, the whole of both weight halves and the whole bias row, and writes rows
  `8192 t … 8192 t + 8191` of the output.  Entry `(r, q)` of the tile it writes depends on row `r` of the two tiles only,
  so it is entry `(8192 t + r, q)` of ONE function `padded` of the five operand arrays: row `P`, column `q` is

      max ( ∑_k X (P, k) · W₁ (k, q) + ∑_k A (P, k) · W₂ (k, q) + B (0, q) ,  0 ).

  Every row `P < 106496` lies in the block of the point `P / 8192`, so after the last point the whole output array holds
  `padded` of the operands.
-/
import proofs.«111383_j80358838108753_2_alg».proof.Proof.Gen.KernelIdeal.Frame
import proofs.«111383_j80358838108753_2_alg».proof.Proof.Tile
import Idealize.ShloMosaic.Lib.Pipeline.Value

set_option maxRecDepth 16384

noncomputable section

open scoped BigOperators

namespace Cert.MRConv.Kernel

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem zero_offsets : (![0, 0] : Fin 2 → Nat) = fun _ => 0 := funext fun a => by fin_cases a <;> rfl

/-- The padded output: each row from the same row of the padded features and aggregate. -/
def padded (X A : S106496x128.Idx → EReal) (W1 W2 : S128x128.Idx → EReal) (B : S1x128.Idx → EReal) :
    S106496x128.Idx → EReal := fun i =>
  max ((∑ k : Fin 128, X (ix2 (i 0) k) * W1 (ix2 k (i 1)) + ∑ k : Fin 128, A (ix2 (i 0) k) * W2 (ix2 k (i 1)))
        + B (ix2 (0 : Fin 1) (i 1))) (Ideal.ofBits .f32 0x00000000#32)

/-- A tile entry is an entry of `padded` as soon as the tile rows and the weight and bias entries it reads are the
    operand arrays' entries at the matching positions. -/
theorem entry_eq (X A : S106496x128.Idx → EReal) (W1 W2 : S128x128.Idx → EReal) (B : S1x128.Idx → EReal)
    (x0 x1 : Vec Ideal S8192x128 .f32) (w1 w2 : Vec Ideal S128x128 .f32) (b : Vec Ideal S1x128 .f32)
    (r : Fin 8192) (q : Fin 128) (i : S106496x128.Idx)
    (h0 : ∀ k : Fin 128, x0 (ix2 r k) = X (ix2 (i 0) k)) (h1 : ∀ k : Fin 128, x1 (ix2 r k) = A (ix2 (i 0) k))
    (h2 : ∀ k : Fin 128, w1 (ix2 k q) = W1 (ix2 k (i 1))) (h3 : ∀ k : Fin 128, w2 (ix2 k q) = W2 (ix2 k (i 1)))
    (h4 : b (ix2 (0 : Fin 1) q) = B (ix2 (0 : Fin 1) (i 1))) :
    k0_pay1 (F := Ideal) x0 x1 w1 w2 b (ix2 r q) = padded X A W1 W2 B i := by
  rw [Cert.MRConv.Tile.tile_apply]
  unfold padded
  simp only [h0, h1, h2, h3, h4]

/-- The printed index maps over the grid: the two row-tiled inputs move with the output, the weight halves and the bias
    stay, and the output's row block at point `t` is block `t`. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

set_option maxHeartbeats 2000000 in
/-- What point `t` writes back is block `t` of `padded` of the operand arrays as the launch finds them. -/
theorem flushed_eq (c : Dev nD) (t : Fin cfg0.N) :
    (dats m 0 c).flushed 5 t
      = ((cfg0.win 5).blk t).view.read (Elt Ideal)
          (padded (V m c main_v11) (V m c main_v12) (V m c main_v8) (V m c main_v9) (V m c main_v10)) := by
  show (cfg0.win 5).cut (grid0.coords t) ((dats m 0 c).after 5 t) = _
  rw [after0_5]
  unfold out0_5
  rw [View.canon_unit_zero zero_offsets]
  simp only [View.ld_unit_zero (S := S8192x128) zero_offsets, View.ld_unit_zero (S := S128x128) zero_offsets,
    View.ld_unit_zero (S := S1x128) zero_offsets]
  obtain ⟨e00, e01, e10, e11, e20, e21, e30, e31, e40, e41, e50, e51⟩ := idx_facts t
  funext j
  obtain ⟨r, q, rfl⟩ : ∃ (r : Fin 8192) (q : Fin 128), j = ix2 r q := ⟨j 0, j 1, eq_ix2 j⟩
  show k0_pay1 (F := Ideal) (iblk m c 0 t) (iblk m c 1 t) (iblk m c 2 t) (iblk m c 3 t) (iblk m c 4 t) (ix2 r q)
      = padded (V m c main_v11) (V m c main_v12) (V m c main_v8) (V m c main_v9) (V m c main_v10)
          (((cfg0.win 5).blk t).view.emb (ix2 r q))
  refine entry_eq (V m c main_v11) (V m c main_v12) (V m c main_v8) (V m c main_v9) (V m c main_v10)
    (iblk m c 0 t) (iblk m c 1 t) (iblk m c 2 t) (iblk m c 3 t) (iblk m c 4 t) r q
    (((cfg0.win 5).blk t).view.emb (ix2 r q)) ?_ ?_ ?_ ?_ ?_
  · intro k
    show V m c main_v11 (((cfg0.win 0).blk t).view.emb (ix2 r k))
        = V m c main_v11 (ix2 ((((cfg0.win 5).blk t).view.emb (ix2 r q)) 0) k)
    have h : ((cfg0.win 0).blk t).view.emb (ix2 r k) = ix2 ((((cfg0.win 5).blk t).view.emb (ix2 r q)) 0) k := by
      funext a; apply Fin.ext
      match a with
      | ⟨0, _⟩ => show win0_0.index t (0 : Fin 2) * 8192 + 1 * r.val = win0_5.index t (0 : Fin 2) * 8192 + 1 * r.val; omega
      | ⟨1, _⟩ => show win0_0.index t (1 : Fin 2) * 128 + 1 * k.val = k.val; omega
    exact congrArg (V m c main_v11) h
  · intro k
    show V m c main_v12 (((cfg0.win 1).blk t).view.emb (ix2 r k))
        = V m c main_v12 (ix2 ((((cfg0.win 5).blk t).view.emb (ix2 r q)) 0) k)
    have h : ((cfg0.win 1).blk t).view.emb (ix2 r k) = ix2 ((((cfg0.win 5).blk t).view.emb (ix2 r q)) 0) k := by
      funext a; apply Fin.ext
      match a with
      | ⟨0, _⟩ => show win0_1.index t (0 : Fin 2) * 8192 + 1 * r.val = win0_5.index t (0 : Fin 2) * 8192 + 1 * r.val; omega
      | ⟨1, _⟩ => show win0_1.index t (1 : Fin 2) * 128 + 1 * k.val = k.val; omega
    exact congrArg (V m c main_v12) h
  · intro k
    show V m c main_v8 (((cfg0.win 2).blk t).view.emb (ix2 k q))
        = V m c main_v8 (ix2 k ((((cfg0.win 5).blk t).view.emb (ix2 r q)) 1))
    have h : ((cfg0.win 2).blk t).view.emb (ix2 k q) = ix2 k ((((cfg0.win 5).blk t).view.emb (ix2 r q)) 1) := by
      funext a; apply Fin.ext
      match a with
      | ⟨0, _⟩ => show win0_2.index t (0 : Fin 2) * 128 + 1 * k.val = k.val; omega
      | ⟨1, _⟩ => show win0_2.index t (1 : Fin 2) * 128 + 1 * q.val = win0_5.index t (1 : Fin 2) * 128 + 1 * q.val; omega
    exact congrArg (V m c main_v8) h
  · intro k
    show V m c main_v9 (((cfg0.win 3).blk t).view.emb (ix2 k q))
        = V m c main_v9 (ix2 k ((((cfg0.win 5).blk t).view.emb (ix2 r q)) 1))
    have h : ((cfg0.win 3).blk t).view.emb (ix2 k q) = ix2 k ((((cfg0.win 5).blk t).view.emb (ix2 r q)) 1) := by
      funext a; apply Fin.ext
      match a with
      | ⟨0, _⟩ => show win0_3.index t (0 : Fin 2) * 128 + 1 * k.val = k.val; omega
      | ⟨1, _⟩ => show win0_3.index t (1 : Fin 2) * 128 + 1 * q.val = win0_5.index t (1 : Fin 2) * 128 + 1 * q.val; omega
    exact congrArg (V m c main_v9) h
  · show V m c main_v10 (((cfg0.win 4).blk t).view.emb (ix2 (0 : Fin 1) q))
        = V m c main_v10 (ix2 (0 : Fin 1) ((((cfg0.win 5).blk t).view.emb (ix2 r q)) 1))
    have h : ((cfg0.win 4).blk t).view.emb (ix2 (0 : Fin 1) q) = ix2 (0 : Fin 1) ((((cfg0.win 5).blk t).view.emb (ix2 r q)) 1) := by
      funext a; apply Fin.ext
      match a with
      | ⟨0, _⟩ => show win0_4.index t (0 : Fin 2) * 1 + 1 * 0 = 0; omega
      | ⟨1, _⟩ => show win0_4.index t (1 : Fin 2) * 128 + 1 * q.val = win0_5.index t (1 : Fin 2) * 128 + 1 * q.val; omega
    exact congrArg (V m c main_v10) h

/-- An index of the output array is in point `t`'s block iff each coordinate is in the block's range on its axis. -/
theorem mem_blk (t : Fin cfg0.N) (i : S106496x128.Idx) :
    i ∈ ((cfg0.win 5).blk t).view.set ↔ ∀ a : Fin 2, win0_5.index t a * S8192x128.size a ≤ (i a).val
      ∧ (i a).val < win0_5.index t a * S8192x128.size a + S8192x128.size a := by
  show i ∈ ((View.whole main_v13).slice (win0_5.rect t)).set ↔ _
  rw [View.set_slice_whole, Rect.mem_set_unit]
  exact Iff.rfl

/-- The point whose block holds row `P`: `P / 8192`. -/
def pointOf (i : S106496x128.Idx) : Fin cfg0.N :=
  ⟨(i 0).val / 8192, by have h : (i 0).val < 106496 := (i 0).isLt; have hN : cfg0.N = 13 := N_0; rw [hN]; omega⟩

/-- Every index of the output array is in some point's block. -/
theorem cover (i : S106496x128.Idx) :
    ∃ t : Fin cfg0.N, (cfg0.win 5).flush t = true ∧ i ∈ ((cfg0.win 5).blk t).view.set := by
  have hi0 : (i 0).val < 106496 := (i 0).isLt
  have hi1 : (i 1).val < 128 := (i 1).isLt
  refine ⟨pointOf i, flush0_5 _, ?_⟩
  rw [mem_blk]
  obtain ⟨-, -, -, -, -, -, -, -, -, -, e50, e51⟩ := idx_facts (pointOf i)
  have hp : (pointOf i).val = (i 0).val / 8192 := rfl
  intro a
  match a with
  | ⟨0, _⟩ =>
    show win0_5.index (pointOf i) (0 : Fin 2) * 8192 ≤ (i 0).val
      ∧ (i 0).val < win0_5.index (pointOf i) (0 : Fin 2) * 8192 + 8192
    omega
  | ⟨1, _⟩ =>
    show win0_5.index (pointOf i) (1 : Fin 2) * 128 ≤ (i 1).val
      ∧ (i 1).val < win0_5.index (pointOf i) (1 : Fin 2) * 128 + 128
    omega

/-- After the last point the output array holds `padded` of the operand arrays. -/
theorem final (c : Dev nD) :
    (dats m 0 c).arrAt 5 cfg0.N
      = padded (V m c main_v11) (V m c main_v12) (V m c main_v8) (V m c main_v9) (V m c main_v10) :=
  (dats m 0 c).arrAt_eq_of_cover 5
    (padded (V m c main_v11) (V m c main_v12) (V m c main_v8) (V m c main_v9) (V m c main_v10))
    (fun t _ => flushed_eq m c t) cover

end Cert.MRConv.Kernel

end
-- ==== Proof.Aggregate.lean ====
/-
  THE NEIGHBOURHOOD AGGREGATE, AS ONE FUNCTION OF THE FEATURES AND THE EDGE LIST.

  Both programs build the aggregate the same way: the first row of the edge list gives, for each of the
  100000 · 16 edges, the index of a neighbour; an index below zero counts from the end; the neighbour's feature row
  is gathered (a row whose index is still out of range is filled with the not-a-number pattern); the edges are regrouped
  sixteen to a node; the node's own row is subtracted from each of its sixteen neighbour rows; and the maximum over the
  sixteen is taken, starting from minus infinity.  Nothing below looks inside these steps: the two programs
  agree on the aggregate because they apply this one function to equal arguments.
-/
import proofs.«111383_j80358838108753_2_alg».proof.Proof.Gen.KernelIdeal

noncomputable section

namespace Cert.MRConv

open Idealize.ShloMosaic Cert.KernelIdeal Cert.KernelIdeal.Facts₀

variable {F : FTy → Type} [FloatOps F]

/-- The first row of the edge list, as a vector of 1600000 neighbour indices. -/
def neighbours (e : IVec S2x1600000 32) : IVec S1600000 32 :=
  shapeCast S1600000 (extractStridedSlice S1x1600000 ![0, 0] e slices_S2x1600000_S1x1600000_0_0) shapeCasts_S1x1600000_S1600000

/-- An index below zero counts from the end of the 100000 rows. -/
def fromEnd (i : IVec S1600000 32) : IVec S1600000 32 :=
  select (cmpi .slt i (broadcastInDim S1600000 ![] bcast_S_S1600000 (constantI S_ 32 0#32)))
    (addi i (broadcastInDim S1600000 ![] bcast_S_S1600000 (constantI S_ 32 100000#32))) i

/-- The gathered rows: row `n` is the feature row at index `i n`, or the fill pattern where `i n` is out of range. -/
def gatherRows (x : FVec F S100000x128 .f32) (i : IVec S1600000 32) : FVec F S1600000x128 .f32 :=
  select
    (broadcastInDim S1600000x128 ![0] bcast_S1600000_S1600000x128_0
      (Host.reduce IntOp.andi
        (andi
          (cmpi .sge (broadcastInDim S1600000x1 ![0] bcast_S1600000_S1600000x1_0 i)
            (broadcastInDim S1600000x1 ![] bcast_S_S1600000x1 (constantI S_ 32 0#32)))
          (cmpi .sle (broadcastInDim S1600000x1 ![0] bcast_S1600000_S1600000x1_0 i)
            (broadcastInDim S1600000x1 ![0, 1] bcast_S1x1_S1600000x1_0_1
              (broadcastInDim S1x1 ![1] bcast_S1_S1x1_1 (constantI S1 32 99999#32)))))
        (constantI S_ 1 1#1) reducesTo_S1600000x1_S1600000_d1 h_S_))
    (Host.gather gather_S100000x128_S1600000x1_S1600000x128_1_0_n_n_0_1_1128 x
      (broadcastInDim S1600000x1 ![0] bcast_S1600000_S1600000x1_0 i))
    (broadcastInDim S1600000x128 ![] bcast_S_S1600000x128 (constant S_ .f32 0x7FC00000#32))

/-- Over each node's sixteen gathered rows `g`, the maximum of gathered row minus the node's own row of `x`. -/
def maxRelative (g : FVec F S1600000x128 .f32) (x : FVec F S100000x128 .f32) : FVec F S100000x128 .f32 :=
  Host.reduce FloatOps.maximumf
    (subf
      (shapeCast S100000x16x128 g shapeCasts_S1600000x128_S100000x16x128)
      (broadcastInDim S100000x16x128 ![0, 1, 2] bcast_S100000x1x128_S100000x16x128_0_1_2
        (broadcastInDim S100000x1x128 ![0, 2] bcast_S100000x128_S100000x1x128_0_2 x)))
    (constant S_ .f32 0xFF800000#32) reducesTo_S100000x16x128_S100000x128_d1 h_S_

/-- The aggregate: the neighbour indices, counted from the end where negative, the rows they gather, the maximum of the
    differences. -/
def aggregate (x : FVec F S100000x128 .f32) (e : IVec S2x1600000 32) : FVec F S100000x128 .f32 :=
  maxRelative (gatherRows x (fromEnd (neighbours e))) x

end Cert.MRConv

end
-- ==== Proof.LibTypedRef.lean ====
/-
  A TYPED REFERENCE'S TWO TRANSPORTS CANCEL.

  A host operation inside a module-local function writes its result through a typed reference (the value is
  transported to the buffer's own type) and a later operation reads it back through the same reference (transported
  back).  The two transports are along an equation and its inverse, so reading back what was written gives the value.
  Rewriting with this first leaves a composed term free of the intermediate transports, which is then compared with a
  plain composition of the operations by unfolding alone.
-/
import Idealize.ShloMosaic.Lib.StableHlo

namespace Cert.TypedRef

open Idealize.ShloMosaic Idealize.ShloMosaic.StableHlo

/-- A value written into a typed reference's buffer and read back through the same reference is the value. -/
theorem ofBuf_toBuf {sig : RefSig} {T : BufTy} {Val : EltTy → Type} (x : TRef sig T) (v : T.Contents Val) :
    x.ofBuf (x.toBuf v) = v := by
  obtain ⟨r, rfl, _, _⟩ := x
  rfl

end Cert.TypedRef
-- ==== Proof.KernelOperands.lean ====
/-
  WHAT THE KERNEL'S OPERAND ARRAYS HOLD WHEN IT IS LAUNCHED.

  Before the launch the host forms the aggregate, pads the features and the aggregate with 6496 zero rows (so that the
  106496 rows divide into thirteen tiles of 8192), cuts the weight into its upper and lower 128 rows, and turns the bias
  vector into a one-row matrix.  Each of the five operand arrays is therefore one host operation applied to an argument
  array — or, for the second, to the aggregate of the arguments.  The aggregate is read off in the program's own stages:
  the neighbour indices from the edge list; the gathered rows from the features and those indices; then the maximum of the
  differences and the padding.  Each stage is a short list of operations and is read from arbitrary contents, so that no
  step compares more than one stage's worth of operations.
-/
import proofs.«111383_j80358838108753_2_alg».proof.Proof.Gen.KernelIdeal.Frame
import proofs.«111383_j80358838108753_2_alg».proof.Proof.Aggregate
import proofs.«111383_j80358838108753_2_alg».proof.Proof.LibTypedRef
import Idealize.ShloMosaic.Lib.StableHlo.Run
import Idealize.ShloMosaic.PureOps.Ideal

noncomputable section

namespace Cert.MRConv.Kernel

open Idealize.ShloMosaic Idealize.ShloMosaic.TcCoe Idealize.SL.Sem Idealize.ShloMosaic.StableHlo
open Cert.KernelIdeal Cert.KernelIdeal.Facts₀

variable (m : (ℓ : Loc nD τ sig) → Buf (Elt Ideal) ℓ)

/-- The value the padding rows are filled with (never read by a row that is kept). -/
def padValue : FVec Ideal S_ .f32 := sitofp (F := Ideal) .f32 (constantI S_ 32 0#32)

/-- The features, padded. -/
theorem V_features (c : Dev nD) :
    (Gen.V m c main_v11 : S106496x128.Idx → EReal)
      = pad S106496x128 ![0, 0] ![6496, 0] ![0, 0] (m ((c : Thread nD τ).loc main_arg0)) padValue
          pads_S100000x128_S106496x128_064960_000 h_S_ := by
  dsimp only [Gen.V, Gen.V0]
  simp only [Gen.hostOps0, Gen.hostOps0_1, Gen.hostOps0_2, Gen.hostOps0_3, Gen.hostOps0_4, Gen.hostOps0_5, List.flatten_cons,
    List.flatten_nil, List.append_nil, List.cons_append, List.nil_append]
  after_results_simp
  rfl

/-! ## The aggregate, stage by stage -/

/-- Stage one: the first row of the edge list as a vector. -/
theorem stage_neighbours (U : Valuation τ sig (Elt Ideal)) :
    after Gen.hostOps0 U (Proc.devRef .tc main_v1) = Cert.MRConv.neighbours (U (Proc.devRef .tc main_arg1)) := by
  simp only [Gen.hostOps0]
  after_results_simp
  rfl

theorem stage_neighbours_features (U : Valuation τ sig (Elt Ideal)) :
    after Gen.hostOps0 U (Proc.devRef .tc main_arg0) = U (Proc.devRef .tc main_arg0) := by
  simp only [Gen.hostOps0]
  after_results_simp

attribute [local irreducible] Host.reduce Host.gather in
set_option maxRecDepth 8192 in
/-- Stage two: the rows gathered at the indices, counted from the end where negative. -/
theorem stage_gather (U : Valuation τ sig (Elt Ideal)) :
    after Gen.hostOps0_1 U (Proc.devRef .tc main_v2)
      = Cert.MRConv.gatherRows (F := Ideal) (U (Proc.devRef .tc main_arg0)) (Cert.MRConv.fromEnd (U (Proc.devRef .tc main_v1))) := by
  simp only [Gen.hostOps0_1, main_call0_call0]
  after_results_simp
  simp only [Cert.TypedRef.ofBuf_toBuf]
  rfl

theorem stage_gather_features (U : Valuation τ sig (Elt Ideal)) :
    after Gen.hostOps0_1 U (Proc.devRef .tc main_arg0) = U (Proc.devRef .tc main_arg0) := by
  simp only [Gen.hostOps0_1, main_call0_call0]
  after_results_simp

attribute [local irreducible] Host.reduce in
set_option maxRecDepth 8192 in
/-- Stage three: sixteen gathered rows to a node, the node's own row subtracted, the maximum. -/
theorem stage_maxRelative (U : Valuation τ sig (Elt Ideal)) :
    after Gen.hostOps0_2 U (Proc.devRef .tc main_v7)
      = Cert.MRConv.maxRelative (F := Ideal) (U (Proc.devRef .tc main_v2)) (U (Proc.devRef .tc main_arg0)) := by
  simp only [Gen.hostOps0_2]
  after_results_simp
  rfl

/-- Padding the features does not touch the aggregate. -/
theorem stage_padFeatures_aggregate (U : Valuation τ sig (Elt Ideal)) :
    after Gen.hostOps0_3 U (Proc.devRef .tc main_v7) = U (Proc.devRef .tc main_v7) := by
  simp only [Gen.hostOps0_3]
  after_results_simp

theorem stage_const_aggregate (U : Valuation τ sig (Elt Ideal)) :
    after Gen.hostOps0_4 U (Proc.devRef .tc main_v7) = U (Proc.devRef .tc main_v7) := by
  simp only [Gen.hostOps0_4]
  after_results_simp

/-- Stage six: the aggregate, padded with whatever the padding scalar's buffer holds. -/
theorem stage_padAggregate (U : Valuation τ sig (Elt Ideal)) :
    after Gen.hostOps0_5 U (Proc.devRef .tc main_v12)
      = pad S106496x128 ![0, 0] ![6496, 0] ![0, 0] (U (Proc.devRef .tc main_v7))
          (sitofp (F := Ideal) .f32 (U (Proc.devRef .tc main_c_0))) pads_S100000x128_S106496x128_064960_000 h_S_ := by
  simp only [Gen.hostOps0_5]
  after_results_simp
  simp only [Cert.TypedRef.ofBuf_toBuf]
  rfl

/-- The contents at the launch are the six stretches of host operations run one after the other. -/
theorem V0_stages (c : Dev nD) :
    Gen.V0 m c = after Gen.hostOps0_5 (after Gen.hostOps0_4 (after Gen.hostOps0_3 (after Gen.hostOps0_2
      (after Gen.hostOps0_1 (after Gen.hostOps0 (fun b => m (c, b))))))) := by
  dsimp only [Gen.V0]
  simp only [List.flatten_cons, List.flatten_nil, List.append_nil, StableHlo.after_append]

/-- The value the aggregate's padding rows are filled with: what the padding scalar's buffer holds at the pad (never
    read by a row that is kept). -/
def aggregatePadValue (c : Dev nD) : FVec Ideal S_ .f32 :=
  sitofp (F := Ideal) .f32
    (after Gen.hostOps0_4 (after Gen.hostOps0_3 (after Gen.hostOps0_2 (after Gen.hostOps0_1 (after Gen.hostOps0
      (fun b => m (c, b)))))) (Proc.devRef .tc main_c_0))

/-- The aggregate of the arguments, padded. -/
theorem V_aggregate (c : Dev nD) :
    (Gen.V m c main_v12 : S106496x128.Idx → EReal)
      = pad S106496x128 ![0, 0] ![6496, 0] ![0, 0]
          (Cert.MRConv.aggregate (F := Ideal) (m ((c : Thread nD τ).loc main_arg0)) (m ((c : Thread nD τ).loc main_arg1)))
          (aggregatePadValue m c) pads_S100000x128_S106496x128_064960_000 h_S_ := by
  show Gen.V0 m c (Proc.devRef .tc main_v12) = _
  rw [V0_stages, stage_padAggregate, stage_const_aggregate, stage_padFeatures_aggregate, stage_maxRelative, stage_gather,
    stage_gather_features, stage_neighbours, stage_neighbours_features]
  rfl

/-- The upper 128 rows of the weight. -/
theorem V_upper (c : Dev nD) :
    (Gen.V m c main_v8 : S128x128.Idx → EReal)
      = extractStridedSlice S128x128 ![0, 0] (m ((c : Thread nD τ).loc main_arg2)) slices_S256x128_S128x128_0_0 := by
  dsimp only [Gen.V, Gen.V0]
  simp only [Gen.hostOps0, Gen.hostOps0_1, Gen.hostOps0_2, Gen.hostOps0_3, Gen.hostOps0_4, Gen.hostOps0_5, List.flatten_cons,
    List.flatten_nil, List.append_nil, List.cons_append, List.nil_append]
  after_results_simp

/-- The lower 128 rows of the weight. -/
theorem V_lower (c : Dev nD) :
    (Gen.V m c main_v9 : S128x128.Idx → EReal)
      = extractStridedSlice S128x128 ![128, 0] (m ((c : Thread nD τ).loc main_arg2)) slices_S256x128_S128x128_128_0 := by
  dsimp only [Gen.V, Gen.V0]
  simp only [Gen.hostOps0, Gen.hostOps0_1, Gen.hostOps0_2, Gen.hostOps0_3, Gen.hostOps0_4, Gen.hostOps0_5, List.flatten_cons,
    List.flatten_nil, List.append_nil, List.cons_append, List.nil_append]
  after_results_simp

/-- The bias as a one-row matrix. -/
theorem V_bias (c : Dev nD) :
    (Gen.V m c main_v10 : S1x128.Idx → EReal)
      = shapeCast S1x128 (m ((c : Thread nD τ).loc main_arg3)) shapeCasts_S128_S1x128 := by
  dsimp only [Gen.V, Gen.V0]
  simp only [Gen.hostOps0, Gen.hostOps0_1, Gen.hostOps0_2, Gen.hostOps0_3, Gen.hostOps0_4, Gen.hostOps0_5, List.flatten_cons,
    List.flatten_nil, List.append_nil, List.cons_append, List.nil_append]
  after_results_simp
  rfl

end Cert.MRConv.Kernel

end
-- ==== Proof.Spec.lean ====
/-
  THE LAYER, INDEX BY INDEX.

  A max-relative graph convolution ends in a kernel-size-one convolution, which is a linear map of the row
  `[x_p ‖ a_p]` of length 256 (the node's own features followed by its aggregated neighbour differences), a bias
  and a rectifier.  At row `p` and output channel `q` the result is

      max ( ∑_{k < 128} x (p, k) · W (k, q)  +  ∑_{k < 128} a (p, k) · W (128 + k, q)  +  b q ,  0 ).

  One side computes the two half sums separately and adds them; the other lays `x_p` and `a_p` side by side and takes
  one sum over all 256 columns.  The two agree because a finite sum over `Fin 256` is the sum over its first 128 indices
  plus the sum over its last 128: a statement about a commutative monoid, so it holds on the extended reals with no
  finiteness hypothesis.
-/
import Idealize.ShloMosaic.PureOps.Ideal
import Idealize.ShloMosaic.Lib.ValueIdx

noncomputable section

open scoped BigOperators

namespace Cert.MRConv

open Idealize.ShloMosaic Idealize.ShloMosaic.ValueIdx

/-- Column `k` of the first half of the 256 weight rows. -/
def lo (k : Fin 128) : Fin 256 := ⟨k.val, by omega⟩
/-- Column `k` of the second half: weight row `128 + k`. -/
def hi (k : Fin 128) : Fin 256 := ⟨128 + k.val, by omega⟩

/-- A sum over 256 indices is the sum over the first 128 plus the sum over the last 128. -/
theorem sum_halves {M : Type*} [AddCommMonoid M] (f : Fin 256 → M) :
    ∑ k : Fin 256, f k = ∑ k : Fin 128, f (lo k) + ∑ k : Fin 128, f (hi k) :=
  Fin.sum_univ_add (a := 128) (b := 128) f

/-- The layer at row `p`, channel `q`: both half products, the bias, the rectifier. -/
def layerAt (x a : (⟨2, ![100000, 128]⟩ : Shape).Idx → EReal) (W : (⟨2, ![256, 128]⟩ : Shape).Idx → EReal)
    (b : (⟨1, ![128]⟩ : Shape).Idx → EReal) (p : Fin 100000) (q : Fin 128) : EReal :=
  max ((∑ k : Fin 128, x (ix2 p k) * W (ix2 (lo k) q) + ∑ k : Fin 128, a (ix2 p k) * W (ix2 (hi k) q)) + b (ix1 q))
    (Ideal.ofBits .f32 0x00000000#32)

/-- The layer as an array. -/
def layer (x a : (⟨2, ![100000, 128]⟩ : Shape).Idx → EReal) (W : (⟨2, ![256, 128]⟩ : Shape).Idx → EReal)
    (b : (⟨1, ![128]⟩ : Shape).Idx → EReal) : (⟨2, ![100000, 128]⟩ : Shape).Idx → EReal :=
  fun j => layerAt x a W b (j 0) (j 1)

theorem layer_apply (x a : (⟨2, ![100000, 128]⟩ : Shape).Idx → EReal) (W : (⟨2, ![256, 128]⟩ : Shape).Idx → EReal)
    (b : (⟨1, ![128]⟩ : Shape).Idx → EReal) (p : Fin 100000) (q : Fin 128) :
    layer x a W b (ix2 p q) = layerAt x a W b p q := rfl

end Cert.MRConv

end
-- ==== Proof.KernelRun.lean ====
/-
  THE KERNEL PROGRAM'S RESULT.

  After the launch the host keeps the first 100000 of the 106496 output rows.  Row `p < 100000` of the padded output
  is computed from row `p` of the padded features and of the padded aggregate, which are the features' and the
  aggregate's own row `p` (the padding lies below); the weight halves are the weight's rows `k` and `128 + k`; the bias
  row is the bias vector.  So the result at `(p, q)` is the layer of the specification, applied to the arguments and
  their aggregate.
-/
import proofs.«111383_j80358838108753_2_alg».proof.Proof.KernelArray
import proofs.«111383_j80358838108753_2_alg».proof.Proof.KernelOperands
import proofs.«111383_j80358838108753_2_alg».proof.Proof.Spec
import Idealize.ShloMosaic.Lib.ValueLayout
import Idealize.ShloMosaic.Lib.KernelVsHost

set_option maxRecDepth 16384

noncomputable section

open scoped BigOperators

namespace Cert.MRConv.Kernel

open Idealize.ShloMosaic Idealize.ShloMosaic.TcCoe Idealize.ShloMosaic.ValueIdx Idealize.SL.Sem
open Cert.KernelIdeal Cert.KernelIdeal.Facts₀

variable (m : (ℓ : Loc nD τ sig) → Buf (Elt Ideal) ℓ) (ρ : Dev nD → PrngReg)

/-- A kept row of a padded array is the array's own row. -/
theorem pad_row (x : S100000x128.Idx → EReal) (z : S_.Idx → EReal) (P : Fin 106496) (p : Fin 100000) (hP : P.val = p.val)
    (k : Fin 128) :
    pad S106496x128 ![0, 0] ![6496, 0] ![0, 0] x z pads_S100000x128_S106496x128_064960_000 h_S_ (ix2 P k) = x (ix2 p k) :=
  pad_apply_of_inside ![0, 0] ![6496, 0] ![0, 0] x z pads_S100000x128_S106496x128_064960_000 h_S_ (ix2 P k) (ix2 p k)
    (fun a => match a with
      | ⟨0, _⟩ => by show P.val = 0 + p.val * (0 + 1); omega
      | ⟨1, _⟩ => by show k.val = 0 + k.val * (0 + 1); omega)

/-- Row `k` of the upper half of the weight is the weight's row `k`. -/
theorem upper_apply (W : S256x128.Idx → EReal) (k q : Fin 128) :
    extractStridedSlice S128x128 ![0, 0] W slices_S256x128_S128x128_0_0 (ix2 k q) = W (ix2 (Cert.MRConv.lo k) q) :=
  slice2_axis0_apply 0 W slices_S256x128_S128x128_0_0 k q (Cert.MRConv.lo k) (by show k.val = 0 + k.val; omega)

/-- Row `k` of the lower half is the weight's row `128 + k`. -/
theorem lower_apply (W : S256x128.Idx → EReal) (k q : Fin 128) :
    extractStridedSlice S128x128 ![128, 0] W slices_S256x128_S128x128_128_0 (ix2 k q) = W (ix2 (Cert.MRConv.hi k) q) :=
  slice2_axis0_apply 128 W slices_S256x128_S128x128_128_0 k q (Cert.MRConv.hi k) rfl

/-- The bias as a one-row matrix reads the vector. -/
theorem bias_row_apply (b : S128.Idx → EReal) (q : Fin 128) :
    shapeCast S1x128 b shapeCasts_S128_S1x128 (ix2 (0 : Fin 1) q) = b (ix1 q) :=
  shapeCast_a_1a_apply b shapeCasts_S128_S1x128 0 q

theorem padded_apply (X A : S106496x128.Idx → EReal) (W1 W2 : S128x128.Idx → EReal) (B : S1x128.Idx → EReal)
    (P : Fin 106496) (q : Fin 128) :
    padded X A W1 W2 B (ix2 P q)
      = max ((∑ k : Fin 128, X (ix2 P k) * W1 (ix2 k q) + ∑ k : Fin 128, A (ix2 P k) * W2 (ix2 k q))
              + B (ix2 (0 : Fin 1) q)) (Ideal.ofBits .f32 0x00000000#32) := rfl

/-- The kept rows of the padded output, over operand arrays built from `x`, `a`, `W`, `b` as the host builds them, are the
    specification's layer. -/
theorem kept_apply (x a : S100000x128.Idx → EReal) (W : S256x128.Idx → EReal) (b : S128.Idx → EReal) (z z' : S_.Idx → EReal)
    (p : Fin 100000) (q : Fin 128) :
    extractStridedSlice S100000x128 ![0, 0]
        (padded (pad S106496x128 ![0, 0] ![6496, 0] ![0, 0] x z pads_S100000x128_S106496x128_064960_000 h_S_)
          (pad S106496x128 ![0, 0] ![6496, 0] ![0, 0] a z' pads_S100000x128_S106496x128_064960_000 h_S_)
          (extractStridedSlice S128x128 ![0, 0] W slices_S256x128_S128x128_0_0)
          (extractStridedSlice S128x128 ![128, 0] W slices_S256x128_S128x128_128_0)
          (shapeCast S1x128 b shapeCasts_S128_S1x128))
        slices_S106496x128_S100000x128_0_0 (ix2 p q)
      = Cert.MRConv.layerAt x a W b p q := by
  rw [slice2_axis0_apply 0 _ slices_S106496x128_S100000x128_0_0 p q (⟨p.val, by omega⟩ : Fin 106496)
        (by show p.val = 0 + p.val; omega), padded_apply]
  unfold Cert.MRConv.layerAt
  simp only [pad_row x z ⟨p.val, by omega⟩ p rfl, pad_row a z' ⟨p.val, by omega⟩ p rfl, upper_apply, lower_apply, bias_row_apply]

/-- What the result buffer holds after the host's last line: the kept rows of the padded output. -/
theorem result_eq (c : Dev nD) :
    (Pipeline.afterTail₀ cfgs (Gen.dats m) 0 (Gen.V0 m) [Gen.hostOps1] c main_v14 : S100000x128.Idx → EReal)
      = extractStridedSlice S100000x128 ![0, 0]
          (padded (Gen.V m c main_v11) (Gen.V m c main_v12) (Gen.V m c main_v8) (Gen.V m c main_v9) (Gen.V m c main_v10))
          slices_S106496x128_S100000x128_0_0 := by
  unfold Pipeline.afterTail₀
  show StableHlo.after Gen.hostOps1 _ (Proc.devRef .tc main_v14) = _
  after_results
  exact congrArg (fun A => extractStridedSlice S100000x128 ![0, 0] A slices_S106496x128_S100000x128_0_0)
    ((Pipeline.withArrays_arr spec0 Gen.launch0.win.arr_inj c (Gen.V0 m c)
        (fun w => (Gen.dats m 0 c).arrAt w cfg0.N) 5).trans (final m c))

/-- The result is the layer of the arguments and their aggregate. -/
theorem result_layer (c : Dev nD) :
    (Pipeline.afterTail₀ cfgs (Gen.dats m) 0 (Gen.V0 m) [Gen.hostOps1] c main_v14 : S100000x128.Idx → EReal)
      = Cert.MRConv.layer (m ((c : Thread nD τ).loc main_arg0))
          (Cert.MRConv.aggregate (F := Ideal) (m ((c : Thread nD τ).loc main_arg0)) (m ((c : Thread nD τ).loc main_arg1)))
          (m ((c : Thread nD τ).loc main_arg2)) (m ((c : Thread nD τ).loc main_arg3)) := by
  rw [result_eq, V_features, V_aggregate, V_upper, V_lower, V_bias]
  funext j
  obtain ⟨p, q, rfl⟩ : ∃ (p : Fin 100000) (q : Fin 128), j = ix2 p q := ⟨j 0, j 1, eq_ix2 j⟩
  exact kept_apply _ _ _ _ _ _ p q

/-- Every weakly fair execution of the kernel program terminates without a fault, the result buffer at the layer of the
    arguments and their aggregate, the arguments unchanged. -/
theorem run : θ_run defs (onTc (τ := τ) (main (F := Ideal))) ⟨m, fun _ => 0, ρ⟩ fun r => ∀ c : Dev nD,
      r.2.mem ((c.tc : Thread nD τ).loc main_v14)
          = Cert.MRConv.layer (m ((c.tc : Thread nD τ).loc main_arg0))
              (Cert.MRConv.aggregate (F := Ideal) (m ((c.tc : Thread nD τ).loc main_arg0)) (m ((c.tc : Thread nD τ).loc main_arg1)))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v14 (Pipeline.mem_restRefs_of main_v14 (by decide) (by decide))).trans (result_layer m c),
        ((h c).2 main_arg0 (Pipeline.mem_restRefs_of main_arg0 (by decide) (by decide))).trans (Gen.W_main_arg0 m (Gen.dats m) c),
        ((h c).2 main_arg1 (Pipeline.mem_restRefs_of main_arg1 (by decide) (by decide))).trans (Gen.W_main_arg1 m (Gen.dats m) c),
        ((h c).2 main_arg2 (Pipeline.mem_restRefs_of main_arg2 (by decide) (by decide))).trans (Gen.W_main_arg2 m (Gen.dats m) c),
        ((h c).2 main_arg3 (Pipeline.mem_restRefs_of main_arg3 (by decide) (by decide))).trans (Gen.W_main_arg3 m (Gen.dats m) c)⟩)
    (Gen.run_main m ρ)

end Cert.MRConv.Kernel

end
-- ==== Proof.RefRun.lean ====
/-
  THE REFERENCE PROGRAM AS A STRAIGHT LINE OF HOST OPERATIONS, AND WHAT ITS RESULT BUFFER HOLDS.

  The reference gathers neighbour rows (a helper that first lets negative indices count from the end, a second helper
  inside it doing that selection), forms the max-relative aggregate, lays the features and the aggregate side by side,
  multiplies by the 256 × 128 weight, adds the bias along the rows and applies the rectifier (a third helper).  With the
  helpers' lines written where they are called, the program is one list of thirty-nine operations, each writing one
  buffer of its own, read here in four stretches (indices, gathered rows, aggregate, layer) so that no step compares more
  than one stretch; running the list leaves in the result buffer the composition `refOut` of those operations applied to
  the four argument arrays, and leaves the arguments as they were.
-/
import proofs.«111383_j80358838108753_2_alg».proof.Proof.Gen.ReferenceIdeal
import proofs.«111383_j80358838108753_2_alg».proof.Proof.Aggregate
import proofs.«111383_j80358838108753_2_alg».proof.Proof.LibTypedRef
import Idealize.ShloMosaic.Lib.StableHlo.Run
import Idealize.ShloMosaic.Lib.Pipeline.Frame

noncomputable section

namespace Cert.MRConv.Ref

open Cert.ReferenceIdeal Cert.ReferenceIdeal.Facts₀
open Idealize.ShloMosaic Idealize.ShloMosaic.TcCoe Idealize.SL.Sem Idealize.ShloMosaic.StableHlo

variable {F : FTy → Type} [FloatOps F]

/-- The first two operations: the first row of the edge list, as a vector of neighbour indices. -/
abbrev opsIndices : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000 ]

/-- The next twenty-three, the gathering helper's: indices below zero counted from the end, the rows gathered, a row whose
    index is out of range filled. -/
abbrev opsGather : List (HloOp τ sig (Elt F)) :=
  [ TRef.nullary main_call0.c (constantI S_ 32 0#32),
    TRef.unary main_call0.c main_call0.v0 (broadcastInDim S1600000 ![] bcast_S_S1600000),
    TRef.binary (.of main_v1) main_call0.v0 main_call0.v1 (cmpi .slt),
    TRef.nullary main_call0.c_0 (constantI S_ 32 100000#32),
    TRef.unary main_call0.c_0 main_call0.v2 (broadcastInDim S1600000 ![] bcast_S_S1600000),
    TRef.binary (.of main_v1) main_call0.v2 main_call0.v3 addi,
    TRef.ternary main_call0.v1 main_call0.v3 (.of main_v1) main_call0.call0.v0 select,
    TRef.unary main_call0.call0.v0 main_call0.v5 (broadcastInDim S1600000x1 ![0] bcast_S1600000_S1600000x1_0),
    TRef.nullary main_call0.c_1 (constantI S1 32 99999#32),
    TRef.nullary main_call0.c_2 (constantI S_ 32 0#32),
    TRef.unary main_call0.c_2 main_call0.v6 (broadcastInDim S1600000x1 ![] bcast_S_S1600000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1600000x1 ![0, 1] bcast_S1x1_S1600000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1600000x1_S1600000_d1 h_S_),
    TRef.binary (.of main_arg0) main_call0.v5 main_call0.v13 (fun x i => Host.gather gather_S100000x128_S1600000x1_S1600000x128_1_0_n_n_0_1_1128 x i),
    TRef.unary main_call0.v12 main_call0.v14 (broadcastInDim S1600000x128 ![0] bcast_S1600000_S1600000x128_0),
    TRef.nullary main_call0.cst (constant S_ .f32 0x7FC00000#32),
    TRef.unary main_call0.cst main_call0.v15 (broadcastInDim S1600000x128 ![] bcast_S_S1600000x128),
    TRef.ternary main_call0.v14 main_call0.v13 main_call0.v15 main_call0.v16 select ]

/-- The next six: sixteen rows to a node, the node's own row subtracted, the maximum. -/
abbrev opsAggregate : List (HloOp τ sig (Elt F)) :=
  [ reshape main_v2 main_v3 rfl shapeCasts_S1600000x128_S100000x16x128,
    unary main_arg0 main_v4 (broadcastInDim S100000x1x128 ![0, 2] bcast_S100000x128_S100000x1x128_0_2 : (⟨S100000x128, .f32⟩ : BufTy).Contents (Elt F) → (⟨S100000x1x128, .f32⟩ : BufTy).Contents (Elt F)),
    unary main_v4 main_v5 (broadcastInDim S100000x16x128 ![0, 1, 2] bcast_S100000x1x128_S100000x16x128_0_1_2 : (⟨S100000x1x128, .f32⟩ : BufTy).Contents (Elt F) → (⟨S100000x16x128, .f32⟩ : BufTy).Contents (Elt F)),
    binary main_v3 main_v5 main_v6 (subf : (⟨S100000x16x128, .f32⟩ : BufTy).Contents (Elt F) → (⟨S100000x16x128, .f32⟩ : BufTy).Contents (Elt F) → (⟨S100000x16x128, .f32⟩ : BufTy).Contents (Elt F)),
    nullary main_cst (constant S_ .f32 0xFF800000#32),
    binary main_v6 main_cst main_v7 ((fun x v => Host.reduce FloatOps.maximumf x v reducesTo_S100000x16x128_S100000x128_d1 h_S_) : (⟨S100000x16x128, .f32⟩ : BufTy).Contents (Elt F) → (⟨S_, .f32⟩ : BufTy).Contents (Elt F) → (⟨S100000x128, .f32⟩ : BufTy).Contents (Elt F)) ]

/-- The last eight: features and aggregate side by side, the product with the weight, the bias, the rectifier. -/
abbrev opsLayer : List (HloOp τ sig (Elt F)) :=
  [ binary main_arg0 main_v7 main_v8 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    binary main_v8 main_arg2 main_v9 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg3 main_v10 (broadcastInDim S1x128 ![1] bcast_S128_S1x128_1 : (⟨S128, .f32⟩ : BufTy).Contents (Elt F) → (⟨S1x128, .f32⟩ : BufTy).Contents (Elt F)),
    unary main_v10 main_v11 (broadcastInDim S100000x128 ![0, 1] bcast_S1x128_S100000x128_0_1 : (⟨S1x128, .f32⟩ : BufTy).Contents (Elt F) → (⟨S100000x128, .f32⟩ : BufTy).Contents (Elt F)),
    binary main_v9 main_v11 main_v12 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v12) main_call1.v0 main_call1.v1 maximumf ]

/-- The reference's thirty-nine operations, in program order, the helpers' lines at their calls. -/
abbrev ops : List (HloOp τ sig (Elt F)) := opsIndices ++ (opsGather ++ (opsAggregate ++ opsLayer))

-- thirty-nine binds re-associated: the rewrite under the chain recurses once per statement
set_option maxRecDepth 2048 in
/-- The program is that straight line: the helpers unfolded at their calls, the sequencing re-associated. -/
theorem main_eq (c : Dev nD) : main (F := F) c = seq ops := by
  simp only [main, fn_take.body, fn_where.body, fn_relu.body, ops, opsIndices, opsGather, opsAggregate, opsLayer,
    List.cons_append, List.nil_append, seq, bind_assoc, pure_bind]

/-- Running the whole list is running the four stretches in turn. -/
theorem after_ops (V : Valuation τ sig (Elt F)) :
    after ops V = after opsLayer (after opsAggregate (after opsGather (after opsIndices V))) := by
  simp only [ops, Idealize.ShloMosaic.StableHlo.after_append]

/-- The layer of the reference, from the argument arrays and the aggregate: features and aggregate side by side, the
    product with the weight, the bias along the rows, the rectifier. -/
def tail (x a : FVec F S100000x128 .f32) (W : FVec F S256x128 .f32) (b : FVec F S128 .f32) : FVec F S100000x128 .f32 :=
  maximumf
    (addf
      (Host.dotGeneral dot_S100000x256_S256x128_S100000x128_1_0_0_1_n_n none
        (concatenate S100000x256 1 [⟨S100000x128, x⟩, ⟨S100000x128, a⟩] concatenates_S100000x128_S100000x128_S100000x256_d1) W)
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- What the result buffer holds: the layer of the arguments and their aggregate. -/
def refOut (x : FVec F S100000x128 .f32) (e : IVec S2x1600000 32) (W : FVec F S256x128 .f32) (b : FVec F S128 .f32) :
    FVec F S100000x128 .f32 :=
  tail x (Cert.MRConv.aggregate x e) W b

/-! ## Each stretch, from arbitrary contents -/

theorem indices_eq (U : Valuation τ sig (Elt F)) :
    after opsIndices U (Proc.devRef .tc main_v1) = Cert.MRConv.neighbours (U (Proc.devRef .tc main_arg1)) := by
  simp only [opsIndices]
  after_results_simp
  rfl
theorem indices_arg0 (U : Valuation τ sig (Elt F)) :
    after opsIndices U (Proc.devRef .tc main_arg0) = U (Proc.devRef .tc main_arg0) := by
  simp only [opsIndices]
  after_results_simp
theorem indices_arg1 (U : Valuation τ sig (Elt F)) :
    after opsIndices U (Proc.devRef .tc main_arg1) = U (Proc.devRef .tc main_arg1) := by
  simp only [opsIndices]
  after_results_simp
theorem indices_arg2 (U : Valuation τ sig (Elt F)) :
    after opsIndices U (Proc.devRef .tc main_arg2) = U (Proc.devRef .tc main_arg2) := by
  simp only [opsIndices]
  after_results_simp
theorem indices_arg3 (U : Valuation τ sig (Elt F)) :
    after opsIndices U (Proc.devRef .tc main_arg3) = U (Proc.devRef .tc main_arg3) := by
  simp only [opsIndices]
  after_results_simp

attribute [local irreducible] Host.reduce Host.gather in
set_option maxRecDepth 8192 in
theorem gather_eq (U : Valuation τ sig (Elt F)) :
    after opsGather U (Proc.devRef .tc main_v2)
      = Cert.MRConv.gatherRows (U (Proc.devRef .tc main_arg0)) (Cert.MRConv.fromEnd (U (Proc.devRef .tc main_v1))) := by
  simp only [opsGather, main_call0, main_call0_call0]
  after_results_simp
  simp only [Cert.TypedRef.ofBuf_toBuf]
  rfl
theorem gather_arg0 (U : Valuation τ sig (Elt F)) :
    after opsGather U (Proc.devRef .tc main_arg0) = U (Proc.devRef .tc main_arg0) := by
  simp only [opsGather, main_call0, main_call0_call0]
  after_results_simp
theorem gather_arg1 (U : Valuation τ sig (Elt F)) :
    after opsGather U (Proc.devRef .tc main_arg1) = U (Proc.devRef .tc main_arg1) := by
  simp only [opsGather, main_call0, main_call0_call0]
  after_results_simp
theorem gather_arg2 (U : Valuation τ sig (Elt F)) :
    after opsGather U (Proc.devRef .tc main_arg2) = U (Proc.devRef .tc main_arg2) := by
  simp only [opsGather, main_call0, main_call0_call0]
  after_results_simp
theorem gather_arg3 (U : Valuation τ sig (Elt F)) :
    after opsGather U (Proc.devRef .tc main_arg3) = U (Proc.devRef .tc main_arg3) := by
  simp only [opsGather, main_call0, main_call0_call0]
  after_results_simp

attribute [local irreducible] Host.reduce in
set_option maxRecDepth 8192 in
theorem aggregate_eq (U : Valuation τ sig (Elt F)) :
    after opsAggregate U (Proc.devRef .tc main_v7)
      = Cert.MRConv.maxRelative (U (Proc.devRef .tc main_v2)) (U (Proc.devRef .tc main_arg0)) := by
  simp only [opsAggregate]
  after_results_simp
  rfl
theorem aggregate_arg0 (U : Valuation τ sig (Elt F)) :
    after opsAggregate U (Proc.devRef .tc main_arg0) = U (Proc.devRef .tc main_arg0) := by
  simp only [opsAggregate]
  after_results_simp
theorem aggregate_arg1 (U : Valuation τ sig (Elt F)) :
    after opsAggregate U (Proc.devRef .tc main_arg1) = U (Proc.devRef .tc main_arg1) := by
  simp only [opsAggregate]
  after_results_simp
theorem aggregate_arg2 (U : Valuation τ sig (Elt F)) :
    after opsAggregate U (Proc.devRef .tc main_arg2) = U (Proc.devRef .tc main_arg2) := by
  simp only [opsAggregate]
  after_results_simp
theorem aggregate_arg3 (U : Valuation τ sig (Elt F)) :
    after opsAggregate U (Proc.devRef .tc main_arg3) = U (Proc.devRef .tc main_arg3) := by
  simp only [opsAggregate]
  after_results_simp

/-- The last eight operations leave in the result buffer the layer of what they find in the features', the aggregate's,
    the weight's and the bias's buffers. -/
theorem layer_eq (U : Valuation τ sig (Elt F)) :
    after opsLayer U (Proc.devRef .tc main_v13)
      = tail (U (Proc.devRef .tc main_arg0)) (U (Proc.devRef .tc main_v7)) (U (Proc.devRef .tc main_arg2))
          (U (Proc.devRef .tc main_arg3)) := by
  simp only [opsLayer, main_call1]
  after_results_simp
  simp only [Cert.TypedRef.ofBuf_toBuf]
  rfl
theorem layer_arg0 (U : Valuation τ sig (Elt F)) :
    after opsLayer U (Proc.devRef .tc main_arg0) = U (Proc.devRef .tc main_arg0) := by
  simp only [opsLayer, main_call1]
  after_results_simp
theorem layer_arg1 (U : Valuation τ sig (Elt F)) :
    after opsLayer U (Proc.devRef .tc main_arg1) = U (Proc.devRef .tc main_arg1) := by
  simp only [opsLayer, main_call1]
  after_results_simp
theorem layer_arg2 (U : Valuation τ sig (Elt F)) :
    after opsLayer U (Proc.devRef .tc main_arg2) = U (Proc.devRef .tc main_arg2) := by
  simp only [opsLayer, main_call1]
  after_results_simp
theorem layer_arg3 (U : Valuation τ sig (Elt F)) :
    after opsLayer U (Proc.devRef .tc main_arg3) = U (Proc.devRef .tc main_arg3) := by
  simp only [opsLayer, main_call1]
  after_results_simp

/-! ## The whole list -/

/-- At the result buffer: the layer of the arguments and their aggregate. -/
theorem out_eq (V : Valuation τ sig (Elt F)) :
    after ops V (Proc.devRef .tc main_v13)
      = refOut (V (Proc.devRef .tc main_arg0)) (V (Proc.devRef .tc main_arg1)) (V (Proc.devRef .tc main_arg2))
          (V (Proc.devRef .tc main_arg3)) := by
  rw [after_ops, layer_eq, aggregate_eq, aggregate_arg0, aggregate_arg2, aggregate_arg3, gather_eq, gather_arg0, gather_arg2,
    gather_arg3, indices_eq, indices_arg0, indices_arg2, indices_arg3]
  rfl

theorem arg0_eq (V : Valuation τ sig (Elt F)) : after ops V (Proc.devRef .tc main_arg0) = V (Proc.devRef .tc main_arg0) := by
  rw [after_ops, layer_arg0, aggregate_arg0, gather_arg0, indices_arg0]
theorem arg1_eq (V : Valuation τ sig (Elt F)) : after ops V (Proc.devRef .tc main_arg1) = V (Proc.devRef .tc main_arg1) := by
  rw [after_ops, layer_arg1, aggregate_arg1, gather_arg1, indices_arg1]
theorem arg2_eq (V : Valuation τ sig (Elt F)) : after ops V (Proc.devRef .tc main_arg2) = V (Proc.devRef .tc main_arg2) := by
  rw [after_ops, layer_arg2, aggregate_arg2, gather_arg2, indices_arg2]
theorem arg3_eq (V : Valuation τ sig (Elt F)) : after ops V (Proc.devRef .tc main_arg3) = V (Proc.devRef .tc main_arg3) := by
  rw [after_ops, layer_arg3, aggregate_arg3, gather_arg3, indices_arg3]

theorem scopedRefs_eq : (Finset.univ.filter fun b : Ref sig .tc => b.isScoped) = ∅ := by decide
theorem scopedSems_eq : (Finset.univ.filter fun sm : SemLoc sig => sm.isScoped .tc) = ∅ := by decide

theorem opsIndices_sub : (opsIndices : List (HloOp τ sig (Elt F))).Forall fun op => op.bufs ⊆ tcRefs τ sig :=
  ⟨unary_bufs_sub .., reshape_bufs_sub ..⟩
theorem opsGather_sub : (opsGather : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem opsAggregate_sub : (opsAggregate : List (HloOp τ sig (Elt F))).Forall fun op => op.bufs ⊆ tcRefs τ sig :=
  ⟨reshape_bufs_sub .., unary_bufs_sub .., unary_bufs_sub .., binary_bufs_sub .., nullary_bufs_sub .., binary_bufs_sub ..⟩
theorem opsLayer_sub : (opsLayer : List (HloOp τ sig (Elt F))).Forall fun op => op.bufs ⊆ tcRefs τ sig :=
  ⟨binary_bufs_sub .., binary_bufs_sub .., unary_bufs_sub .., unary_bufs_sub .., binary_bufs_sub .., nullary_bufs_sub ..,
    unary_bufs_sub .., binary_bufs_sub ..⟩
theorem ops_sub : (ops : List (HloOp τ sig (Elt F))).Forall fun op => op.bufs ⊆ tcRefs τ sig :=
  List.forall_iff_forall_mem.mpr fun op h => by
    rcases List.mem_append.mp h with h | h
    · exact List.forall_iff_forall_mem.mp opsIndices_sub op h
    rcases List.mem_append.mp h with h | h
    · exact List.forall_iff_forall_mem.mp opsGather_sub op h
    rcases List.mem_append.mp h with h | h
    · exact List.forall_iff_forall_mem.mp opsAggregate_sub op h
    · exact List.forall_iff_forall_mem.mp opsLayer_sub op h

/-- From any memory with zero counters, every weakly fair execution of the reference terminates without a fault; the
    result buffer ends at `refOut` of the argument arrays, and the argument arrays end as they began. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v13).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_seq scopedRefs_eq scopedSems_eq defs main (fun _ => ops) main_eq (fun _ => ops_sub) m ρ)

end Cert.MRConv.Ref

end
-- ==== Proof.RefValue.lean ====
/-
  THE REFERENCE'S LAYER, ENTRY BY ENTRY.

  The reference lays the features and the aggregate side by side into rows of length 256 and takes ONE product with the
  256 × 128 weight.  Entry `(p, q)` of that product is a sum over all 256 columns; its first 128 terms read the features
  against the upper half of the weight, its last 128 the aggregate against the lower half, so splitting the sum in the
  middle gives the two half products of the specification.  The bias, a vector, is first made a one-row matrix and then
  repeated down the rows: at `(p, q)` it is the vector's entry `q`.  The rectifier's zero is a scalar repeated everywhere.
-/
import proofs.«111383_j80358838108753_2_alg».proof.Proof.RefRun
import proofs.«111383_j80358838108753_2_alg».proof.Proof.Spec
import proofs.«111383_j80358838108753_2_alg».proof.Proof.LibMatOps
import Idealize.ShloMosaic.Lib.IdealHost
import Idealize.ShloMosaic.Lib.Pipeline.Value

noncomputable section

open scoped BigOperators

namespace Cert.MRConv.Ref

open Idealize.ShloMosaic Idealize.ShloMosaic.ValueIdx Cert.ReferenceIdeal Cert.ReferenceIdeal.Facts₀

/-- A row of the side-by-side array, in its first 128 columns, is the features' row. -/
theorem joined_lo (x a : FVec Ideal S100000x128 .f32) (p : Fin 100000) (k : Fin 128) :
    concatenate S100000x256 1 [⟨S100000x128, x⟩, ⟨S100000x128, a⟩] concatenates_S100000x128_S100000x128_S100000x256_d1
        (ix2 p (Cert.MRConv.lo k)) = x (ix2 p k) :=
  concatenate_pair_apply_left (1 : Fin 2) x a concatenates_S100000x128_S100000x128_S100000x256_d1 (ix2 p (Cert.MRConv.lo k)) rfl
    (ix2 p k) (fun b => match b with | ⟨0, _⟩ => rfl | ⟨1, _⟩ => rfl)

/-- In its last 128 columns it is the aggregate's row. -/
theorem joined_hi (x a : FVec Ideal S100000x128 .f32) (p : Fin 100000) (k : Fin 128) :
    concatenate S100000x256 1 [⟨S100000x128, x⟩, ⟨S100000x128, a⟩] concatenates_S100000x128_S100000x128_S100000x256_d1
        (ix2 p (Cert.MRConv.hi k)) = a (ix2 p k) :=
  concatenate_pair_apply_right (1 : Fin 2) x a concatenates_S100000x128_S100000x128_S100000x256_d1 (ix2 p (Cert.MRConv.hi k)) rfl rfl
    (ix2 p k) (fun b hb => match b, hb with | ⟨0, _⟩, _ => rfl | ⟨1, _⟩, hb => absurd rfl hb)
    (show k.val + 128 = 128 + k.val from Nat.add_comm _ _)

/-- The bias repeated down the rows reads the vector's entry of the column. -/
theorem bias_apply (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) := by
  rw [broadcastInDim_apply ![0, 1] bcast_S1x128_S100000x128_0_1 _ (ix2 p q) (ix2 (0 : Fin 1) q)
        (fun a => match a with | ⟨0, _⟩ => rfl | ⟨1, _⟩ => rfl),
      broadcastInDim_apply ![1] bcast_S128_S1x128_1 b (ix2 (0 : Fin 1) q) (ix1 q)
        (fun a => match a with | ⟨0, _⟩ => rfl)]

/-- The one product with the whole weight: entry `(p, q)` is the sum over all 256 columns. -/
theorem product_apply (l : FVec Ideal S100000x256 .f32) (W : FVec Ideal S256x128 .f32) (p : Fin 100000) (q : Fin 128) :
    Host.dotGeneral dot_S100000x256_S256x128_S100000x128_1_0_0_1_n_n none l W (ix2 p q)
      = ∑ k : Fin 256, l (ix2 p k) * W (ix2 k q) :=
  Cert.MatOps.dotGeneral_plain_apply (M := 100000) (K := 256) (C := 128)
    dot_S100000x256_S256x128_S100000x128_1_0_0_1_n_n_wf none .single l W p q

/-- The reference's layer at `(p, q)` is the specification's. -/
theorem tail_apply (x a : FVec Ideal S100000x128 .f32) (W : FVec Ideal S256x128 .f32) (b : FVec Ideal S128 .f32)
    (p : Fin 100000) (q : Fin 128) :
    tail (F := Ideal) x a W b (ix2 p q) = Cert.MRConv.layerAt x a W b p q := by
  unfold tail Cert.MRConv.layerAt
  rw [maximumf_apply, addf_apply, bias_apply, broadcastInDim_scalar_apply, constant_apply]
  rw [product_apply, Cert.MRConv.sum_halves]
  simp only [joined_lo, joined_hi]

/-- As arrays. -/
theorem tail_eq (x a : FVec Ideal S100000x128 .f32) (W : FVec Ideal S256x128 .f32) (b : FVec Ideal S128 .f32) :
    tail (F := Ideal) x a W b = Cert.MRConv.layer x a W b := by
  funext j
  obtain ⟨p, q, rfl⟩ : ∃ (p : Fin 100000) (q : Fin 128), j = ix2 p q := ⟨j 0, j 1, eq_ix2 j⟩
  exact tail_apply x a W b p q

end Cert.MRConv.Ref

end
-- ==== Proof.lean ====
/-
  A max-relative graph convolution layer, as a tiled kernel and as plain array code, compute the same array.

  Both programs gather sixteen neighbour rows per node, subtract the node's own row and take the maximum: the
  aggregate, one function of the features and the edge list (Proof/Aggregate.lean).  The kernel program then pads features
  and aggregate to thirteen tiles of 8192 rows, and on each tile adds two half products — features by the upper 128 rows of
  the weight, aggregate by the lower 128 — the bias and a rectifier (Proof/Tile.lean); the tiles are the blocks of one
  whole-array function (Proof/KernelArray.lean), of which the host keeps the first 100000 rows (Proof/KernelRun.lean).
  The reference lays features and aggregate side by side and takes one product with the whole weight
  (Proof/RefRun.lean, Proof/RefValue.lean).  A sum over 256 columns is the sum over the first 128 plus the sum over the
  last 128 (Proof/Spec.lean), in any commutative monoid, so on the extended reals the two results agree entry by entry
  whatever the inputs hold; the precondition is not used.  The idealization rewrote no operation, so there is nothing
  to preserve.
-/
import proofs.«111383_j80358838108753_2_alg».proof.Defs
import proofs.«111383_j80358838108753_2_alg».proof.Proof.Gen.Kernel
import proofs.«111383_j80358838108753_2_alg».proof.Proof.Gen.Kernel.Skeleton
import proofs.«111383_j80358838108753_2_alg».proof.Proof.Gen.Kernel.Launch
import proofs.«111383_j80358838108753_2_alg».proof.Proof.Gen.Kernel.Points
import proofs.«111383_j80358838108753_2_alg».proof.Proof.Gen.Kernel.Frame
import proofs.«111383_j80358838108753_2_alg».proof.Proof.Gen.KernelIdeal
import proofs.«111383_j80358838108753_2_alg».proof.Proof.Gen.KernelIdeal.Skeleton
import proofs.«111383_j80358838108753_2_alg».proof.Proof.Gen.KernelIdeal.Launch
import proofs.«111383_j80358838108753_2_alg».proof.Proof.Gen.KernelIdeal.Points
import proofs.«111383_j80358838108753_2_alg».proof.Proof.Gen.KernelIdeal.Frame
import proofs.«111383_j80358838108753_2_alg».proof.Proof.Gen.ReferenceIdeal
import proofs.«111383_j80358838108753_2_alg».proof.Proof.Gen.Pre_finite_inputs
import proofs.«111383_j80358838108753_2_alg».proof.Proof.KernelRun
import proofs.«111383_j80358838108753_2_alg».proof.Proof.RefValue
import Idealize.ShloMosaic.Adequacy
import Idealize.ShloMosaic.Init

noncomputable section

namespace Cert.Proof

open Idealize.ShloMosaic Idealize.SL.Sem

/-- The kernel program as printed runs, and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: it runs, and writes no argument. -/
theorem frame_referenceIdeal : Cert.frame_ReferenceIdeal := fun m ρ _ =>
  (θ_run Cert.ReferenceIdeal.defs _ _).mono (fun _ h c => (h c).2) (Cert.MRConv.Ref.run (F := Ideal) m ρ)

/-- No operation was rewritten for the reading on the extended reals. -/
theorem preserves : Cert.preserves_Kernel_KernelIdeal := trivial

/-- From memories that agree on the four arguments both programs end with the layer of the arguments and their
    aggregate in the result buffer: the kernel's by its tiles and the kept rows, the reference's by splitting its one sum
    over 256 columns in the middle. -/
theorem algebraic : Cert.algebraic_KernelIdeal_ReferenceIdeal := by
  intro m ρ m' ρ' _ hagree
  refine ⟨_, Cert.MRConv.Kernel.run m ρ, ?_⟩
  refine (θ_run Cert.ReferenceIdeal.defs _ _).mono (fun _ h c => ⟨(h c).1.trans ?_, (h c).2⟩)
    (Cert.MRConv.Ref.run (F := Ideal) m' ρ')
  rw [(hagree c).1, (hagree c).2.1, (hagree c).2.2.1, (hagree c).2.2.2]
  unfold Cert.MRConv.Ref.refOut
  exact Cert.MRConv.Ref.tail_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
